-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S800000 32) (main_arg2 : IVec S800000 32) (main_arg3 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S50000x128 : Shape := ⟨2, ![50000, 128]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S10000x128 : Shape := ⟨2, ![10000, 128]⟩

abbrev nBuf : Space → Nat
  | .hbm => 21
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S50000x128, .bf16⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .bf16⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S128x128, .f32⟩
  | .hbm, ⟨20, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v11) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩

abbrev nBuf : Space → Nat
  | .hbm => 23
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S_, .f32⟩
  | .hbm, ⟨14, _⟩ => ⟨S50000x128, .f32⟩
  | .hbm, ⟨15, _⟩ => ⟨S800000x1, .i32⟩
  | .hbm, ⟨16, _⟩ => ⟨S50000x128, .f32⟩
  | .hbm, ⟨17, _⟩ => ⟨S128x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One graph-convolution layer, as a function of whole arrays over the extended reals.

  Given the aggregated node features `agg` (50000 nodes, 128 features each), the nodes' own features `x` and a
  128 by 128 matrix `wt` (the layer's weight, already transposed), the layer's value at node `p`, feature `j` is

      max (∑ₖ agg (p, k) · wt (k, j)) 0 + x (p, j):

  a row of `agg` times the matrix, cut at zero, plus the node's own feature (the residual).  An entry depends on
  row `p` of `agg`, column `j` of `wt` and the one entry `(p, j)` of `x`; nothing else.
-/
import Idealize.ShloMosaic.PureOps.Ideal
import Idealize.ShloMosaic.Lib.ValueIdx

noncomputable section

open scoped BigOperators

namespace Cert.GraphLayer

open Idealize.ShloMosaic Idealize.ShloMosaic.ValueIdx

/-- The layer: row times matrix, cut at zero, plus the residual. -/
def layer (agg x : FVec Ideal ⟨2, ![50000, 128]⟩ .f32) (wt : FVec Ideal ⟨2, ![128, 128]⟩ .f32) :
    FVec Ideal ⟨2, ![50000, 128]⟩ .f32 :=
  fun i => max (∑ k : Fin 128, agg (ix2 (i 0) k) * wt (ix2 k (i 1))) 0 + x i

/-- The layer at node `p`, feature `j`. -/
theorem layer_apply (agg x : FVec Ideal ⟨2, ![50000, 128]⟩ .f32) (wt : FVec Ideal ⟨2, ![128, 128]⟩ .f32)
    (p : Fin 50000) (j : Fin 128) :
    layer agg x wt (ix2 p j) = max (∑ k : Fin 128, agg (ix2 p k) * wt (ix2 k j)) 0 + x (ix2 p j) := rfl

end Cert.GraphLayer

end
-- ==== Proof.RefLayer.lean ====
/-
  The reference program's result is the layer of its own aggregated array.

  The reference aggregates on the host (a gather of the source rows, a scatter-add into the destination rows),
  multiplies the aggregated array by the transposed weight, cuts at zero and adds the input.  Read one entry at a
  time: the product's entry `(p, j)` is the sum over `k` of the aggregated array at `(p, k)` times the
  transposed weight at `(k, j)`; the cut is the maximum with the zero word, which denotes 0; the last sum is the
  residual.  The aggregated array and the transposed weight are kept as the stages that compute them and are
  never opened.
-/
import proofs.«137600_j59545426592262_2_alg».proof.Proof.Gen.ReferenceIdeal.Read
import proofs.«137600_j59545426592262_2_alg».proof.Proof.Layer
import Idealize.ShloMosaic.Lib.ValueIdx
import Idealize.ShloMosaic.PureOps.Ideal.Laws

noncomputable section

open scoped BigOperators

namespace Cert.ReferenceIdeal.RefLayer

open Cert.ReferenceIdeal Cert.ReferenceIdeal.Gen Cert.ReferenceIdeal.Read Idealize.ShloMosaic Idealize.ShloMosaic.ValueIdx
open Cert.GraphLayer

/-- The left operand's index of the product at entry `i`, summand `k`: row of `i`, column `k`. -/
theorem lidx_eq (i : S50000x128.Idx) (k : Fin 128) : lidx_main_v11 i k = ix2 (i 0) k :=
  funext fun a => by match a with | ⟨0, _⟩ => rfl | ⟨1, _⟩ => rfl

/-- The right operand's index: row `k`, column of `i`. -/
theorem ridx_eq (i : S50000x128.Idx) (k : Fin 128) : ridx_main_v11 i k = ix2 k (i 1) :=
  funext fun a => by match a with | ⟨0, _⟩ => rfl | ⟨1, _⟩ => rfl

/-- The reference's last stage is the layer of its aggregated array, its input and its transposed weight. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) :
    val_main_v13 (F := Ideal) x0 x1 x2 x3
      = layer (val_main_v9 (F := Ideal) x0 x1 x2) x0 (val_main_v10 (F := Ideal) x3) := by
  funext i
  rw [val_main_v13_apply, val_main_v12_apply, val_main_v11_apply, val_main_call0_v0_apply, val_main_call0_cst_apply]
  simp only [lidx_eq, ridx_eq]
  exact congrArg₂ (· + ·) (congrArg₂ max rfl Ideal.ofBits_zero_f32) rfl

end Cert.ReferenceIdeal.RefLayer

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«137600_j59545426592262_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«137600_j59545426592262_2_alg».proof.Proof.LibDenseRows
import proofs.«137600_j59545426592262_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.BodyLayer.lean ====
/-
  What the kernel's body computes for one block, read at an entry.

  The body loads a block `a` of 10000 rows of the aggregated features, the whole 128 by 128 matrix `w` and the
  same 10000 rows `x` of the nodes' own features, multiplies `a` by `w` into a zero accumulator, takes the
  maximum with zero and adds `x`.  At the exact instance the narrowing of the two factors before the product is
  the identity, and the product into a zero accumulator is the plain sum over the contracted axis, so at row `p`,
  column `j` of the block the stored value is

      max (∑ₖ a (p, k) · w (k, j)) 0 + x (p, j).
-/
import proofs.«137600_j59545426592262_2_alg».proof.Proof.Gen.KernelIdeal.Skeleton
import proofs.«137600_j59545426592262_2_alg».proof.Proof.LibPlainLayers
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's product has the plain dimension numbers: left axis 1 against right axis 0. -/
theorem dims_plain : dot_S10000x128_S128x128_S10000x128_1_0_0_1_n_n = DotDims.plain 10000 128 128 := rfl

/-- The stored value at row `p`, column `j` of the block. -/
theorem pay_apply (a : FVec Ideal S10000x128 .f32) (w : FVec Ideal S128x128 .f32) (x : FVec Ideal S10000x128 .f32)
    (p : Fin 10000) (j : Fin 128) :
    k0_pay1 (F := Ideal) a w x (ix2 p j) = max (∑ k : Fin 128, a (ix2 p k) * w (ix2 k j)) 0 + x (ix2 p j) := by
  unfold k0_pay1
  refine congrArg₂ (· + ·) (congrArg₂ max ?_ Ideal.ofBits_zero_f32) rfl
  refine (Cert.PlainLayers.plainMM_of_eq _ dims_plain none _ _ p j).trans ?_
  refine Finset.sum_congr rfl fun k _ => ?_
  exact congrArg₂ (· * ·) (congrFun (shapeCast_self a _) _) (congrFun (shapeCast_self w _) _)

end Cert.KernelIdeal.Body

end
-- ==== Proof.Blocks.lean ====
/-
  From the kernel's five blocks to the whole result array.

  The kernel runs at five grid points.  At point `t` it reads rows `10000·t … 10000·t + 9999` of the aggregated
  array and of the input, the whole matrix, and writes the same rows of the result.  So the entry the body stores
  at row `p`, column `j` of its block sits at row `10000·t + p`, column `j` of the result; the summand `k` of
  its product reads the aggregated array at `(10000·t + p, k)` and the matrix at `(k, j)`; its residual reads the
  input at `(10000·t + p, j)`.  That is the layer (`Cert.GraphLayer.layer`) of the three arrays at that entry, so
  each point writes back its block of the layer.  The five blocks of 10000 rows tile the 50000 rows — row `r` is
  in the block of point `r / 10000` —, hence after the run the whole result array is the layer of the arrays the
  kernel was launched on.

  The block equation is stated for ANY three arrays: it uses nothing of how the launch arrays were computed.
-/
import proofs.«137600_j59545426592262_2_alg».proof.Proof.Gen.KernelIdeal.Value
import proofs.«137600_j59545426592262_2_alg».proof.Proof.Layer
import proofs.«137600_j59545426592262_2_alg».proof.Proof.BodyLayer
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.GraphLayer
open Idealize.ShloMosaic.Pipeline (Dat)

theorem origin : (![0, 0] : Fin 2 → Nat) = fun _ => 0 := funext fun a => by fin_cases a <;> rfl

/-- Which block each window is on at each of the five points: the two row-tiled inputs move with the result's
    block, row block `t`, column block 0; the matrix stays on its one block. -/
theorem block_index : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block of the result is some point's. -/
theorem block_onto : ∀ q : Fin 5, ∃ t : Fin cfg0.N, win0_3.index t = ![q.val, 0] :=
  (by decide +kernel : ∀ q : Fin 5, ∃ t : Fin grid0.N, win0_3.index t = ![q.val, 0])

/-- For any three arrays: the body's stored block, computed from the blocks of the three arrays at point `t`, is
    the block at `t` of their layer. -/
theorem block_layer (A X : FVec Ideal S50000x128 .f32) (W : FVec Ideal S128x128 .f32) (t : Fin cfg0.N) :
    (cfg0.win 3).cut (grid0.coords t)
        (k0_pay1 (F := Ideal) (((cfg0.win 0).blk t).view.read (Elt Ideal) A) (((cfg0.win 2).blk t).view.read (Elt Ideal) W)
          (((cfg0.win 1).blk t).view.read (Elt Ideal) X))
      = ((cfg0.win 3).blk t).view.read (Elt Ideal) (layer A X W) := by
  obtain ⟨e00, e01, e10, e11, e20, e21, e31⟩ := block_index t
  funext y
  obtain ⟨p, j, rfl⟩ : ∃ (p : Fin 10000) (j : Fin 128), y = ix2 p j := ⟨y 0, y 1, eq_ix2 y⟩
  show k0_pay1 (F := Ideal) (((cfg0.win 0).blk t).view.read (Elt Ideal) A) (((cfg0.win 2).blk t).view.read (Elt Ideal) W)
        (((cfg0.win 1).blk t).view.read (Elt Ideal) X) (ix2 p j)
    = layer A X W (((cfg0.win 3).blk t).view.emb (ix2 p j))
  refine (Body.pay_apply _ _ _ p j).trans ?_
  -- summand k reads the first array in the result entry's row, column k
  have ha : ∀ k : Fin 128, ((cfg0.win 0).blk t).view.read (Elt Ideal) A (ix2 p k)
      = A (ix2 ((((cfg0.win 3).blk t).view.emb (ix2 p j)) 0) k) := fun k => by
    show A (((cfg0.win 0).blk t).view.emb (ix2 p k)) = _
    refine congrArg A (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  -- and the matrix in row k, the result entry's column
  have hw : ∀ k : Fin 128, ((cfg0.win 2).blk t).view.read (Elt Ideal) W (ix2 k j)
      = W (ix2 k ((((cfg0.win 3).blk t).view.emb (ix2 p j)) 1)) := fun k => by
    show W (((cfg0.win 2).blk t).view.emb (ix2 k j)) = _
    refine congrArg W (funext fun a => Fin.ext ?_)
    match a with
    | ⟨0, _⟩ => show win0_2.index t (0 : Fin 2) * 128 + 1 * k.val = k.val; omega
    | ⟨1, _⟩ => show win0_2.index t (1 : Fin 2) * 128 + 1 * j.val = win0_3.index t (1 : Fin 2) * 128 + 1 * j.val; omega
  -- the residual reads the second array at the result entry itself
  have hx : ((cfg0.win 1).blk t).view.read (Elt Ideal) X (ix2 p j)
      = X (((cfg0.win 3).blk t).view.emb (ix2 p j)) := by
    show X (((cfg0.win 1).blk t).view.emb (ix2 p j)) = _
    refine congrArg X (funext fun a => Fin.ext ?_)
    match a with
    | ⟨0, _⟩ => show win0_1.index t (0 : Fin 2) * 10000 + 1 * p.val = win0_3.index t (0 : Fin 2) * 10000 + 1 * p.val; omega
    | ⟨1, _⟩ => show win0_1.index t (1 : Fin 2) * 128 + 1 * j.val = win0_3.index t (1 : Fin 2) * 128 + 1 * j.val; omega
  rw [hx]
  exact congrArg₂ (· + ·)
    (congrArg₂ max (Finset.sum_congr rfl fun k _ => congrArg₂ (· * ·) (ha k) (hw k)) rfl) rfl

variable (m : (ℓ : Loc nD τ sig) → Buf (Elt Ideal) ℓ) (ρ : Dev nD → PrngReg)

/-- What point `t` writes back is its block of the layer of the arrays the kernel was launched on. -/
theorem flushed_eq (c : Dev nD) (t : Fin cfg0.N) :
    (dats m 0 c).flushed 3 t
      = ((cfg0.win 3).blk t).view.read (Elt Ideal)
          (layer (V m c main_v11) (V m c main_arg0) (V m c main_v12)) := by
  rw [Value.flushed3]
  unfold out0_3
  rw [View.canon_unit_zero origin]
  simp only [View.ld_unit_zero (S := S10000x128) origin, View.ld_unit_zero (S := S128x128) origin]
  exact block_layer (V m c main_v11) (V m c main_arg0) (V m c main_v12) t
/-- An entry of the result array is in point `t`'s block iff each coordinate is in the block's range on its axis. -/
theorem mem_block (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v13).slice (win0_3.rect t)).set ↔ _
  rw [View.set_slice_whole, Rect.mem_set_unit]
  exact Iff.rfl

/-- The five blocks tile the array: row `r` is in the block of the point whose row block is `r / 10000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the run the result array is the layer of the arrays the kernel was launched on. -/
theorem final (c : Dev nD) :
    (dats m 0 c).arrAt 3 cfg0.N = layer (V m c main_v11) (V m c main_arg0) (V m c main_v12) :=
  (dats m 0 c).arrAt_eq_of_cover 3 (layer (V m c main_v11) (V m c main_arg0) (V m c main_v12))
    (fun t _ => flushed_eq m c t) cover

end Cert.KernelIdeal.Whole

end
-- ==== Proof.Entry.lean ====
/-
  The two arrays the host computes before the kernel is launched, as the kernel finds them.

  Before the launch the host gathers the source rows of the input, scatter-adds them into the destination rows
  of a zero array (the aggregated features), and transposes the weight.  The kernel's program narrows the input
  before the gather and widens the gathered rows after it; at the exact instance both format changes are the
  identity, so the aggregated array the kernel is launched on is, term for term, the reference program's
  aggregation stage of the same three arguments, and the matrix it is launched on is the reference's transposed
  weight.  Neither the gather nor the scatter-add is opened: the two programs apply the same operations to the same
  arguments, and that is all that is used.
-/
import proofs.«137600_j59545426592262_2_alg».proof.Proof.Gen.KernelIdeal.Frame
import proofs.«137600_j59545426592262_2_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The aggregated array at the launch is the reference's aggregation stage of the arguments. -/
theorem agg_eq (c : Dev nD) :
    (V m c main_v11 : S50000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results
  rfl

/-- The matrix at the launch is the reference's transposed weight. -/
theorem wt_eq (c : Dev nD) :
    (V m c main_v12 : S128x128.Idx → EReal)
      = Cert.ReferenceIdeal.Read.val_main_v10 (F := Ideal) (m ((c : Thread nD τ).loc main_arg3)) := by
  dsimp only [Gen.V, Gen.hostOps0]
  after_results
  rfl

end Cert.KernelIdeal.Entry

end
-- ==== Proof.KernelRun.lean ====
/-
  The kernel's run, with its result named as a function of the four arguments.

  The run of the kernel's program ends with the result array at the layer (`Cert.GraphLayer.layer`) of the arrays
  the kernel was launched on (the blocks tile the array), and those are the aggregated features and the transposed
  weight the host computed from the arguments — the reference's own stages of the same arguments — and the input
  itself, which no host operation touches.  So the result is the layer of the reference's aggregation of
  `(x, src, dst)`, of `x`, and of the transposed `W`; the four arguments end as they began.
-/
import proofs.«137600_j59545426592262_2_alg».proof.Proof.Blocks
import proofs.«137600_j59545426592262_2_alg».proof.Proof.Entry

noncomputable section

namespace Cert.KernelIdeal.Whole

open Cert.KernelIdeal Cert.KernelIdeal.Gen Idealize.ShloMosaic Idealize.ShloMosaic.TcCoe Idealize.SL.Sem
open Cert.GraphLayer

variable (m : (ℓ : Loc nD τ sig) → Buf (Elt Ideal) ℓ) (ρ : Dev nD → PrngReg)

/-- The result array after the run, as a function of the arguments. -/
theorem result_eq (c : Dev nD) :
    (dats m 0 c).arrAt 3 cfg0.N
      = layer (Cert.ReferenceIdeal.Read.val_main_v9 (F := Ideal) (m ((c : Thread nD τ).loc main_arg0))
            (m ((c : Thread nD τ).loc main_arg1)) (m ((c : Thread nD τ).loc main_arg2)))
          (m ((c : Thread nD τ).loc main_arg0))
          (Cert.ReferenceIdeal.Read.val_main_v10 (F := Ideal) (m ((c : Thread nD τ).loc main_arg3))) := by
  rw [final m c, Entry.agg_eq m c, Entry.wt_eq m c, V_main_arg0 m c]

/-- Every weakly fair execution of the kernel's program terminates with the result at the layer of the
    arguments' stages and the arguments unchanged. -/
theorem run : θ_run defs (onTc (τ := τ) (main (F := Ideal))) ⟨m, fun _ => 0, ρ⟩ fun r => ∀ c : Dev nD,
      r.2.mem ((c : Thread nD τ).loc main_v13)
        = layer (Cert.ReferenceIdeal.Read.val_main_v9 (F := Ideal) (m ((c : Thread nD τ).loc main_arg0))
              (m ((c : Thread nD τ).loc main_arg1)) (m ((c : Thread nD τ).loc main_arg2)))
            (m ((c : Thread nD τ).loc main_arg0))
            (Cert.ReferenceIdeal.Read.val_main_v10 (F := Ideal) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Value.run_blocks m ρ)

end Cert.KernelIdeal.Whole

end
-- ==== Proof.lean ====
/-
  A graph-convolution layer computed by a row-tiled kernel, against its plain reference.

  Both programs first aggregate on the host: the source rows of the input `x` are gathered and scatter-added
  into the destination rows of a zero array, giving `agg`; the weight `W` is transposed.  The reference then
  multiplies `agg` by the transposed weight, cuts at zero and adds `x`.  The kernel does the same product, cut and
  sum inside a kernel that works on 10000 rows at a time, at five grid points.  Over the extended reals a change of
  float format is the identity and a product into a zero accumulator is the plain sum, so both end with

      out (p, j) = max (∑ₖ agg (p, k) · Wᵀ (k, j)) 0 + x (p, j)          (`Cert.GraphLayer.layer`).

  The two sides are the same sums of the same products in the same order of summands; no law that could fail at an
  infinity (distributing, cancelling) is used, so the finiteness of the inputs is never opened.

  * the reference's last stage is the layer of its aggregation stage, `x` and its transposed weight (RefLayer);
  * the body's stored value at an entry of a block (BodyLayer, over the plain-product lemma of LibPlainLayers);
  * each point writes its block of the layer and the five blocks tile the array (Blocks);
  * the arrays the kernel is launched on are the reference's stages of the same arguments (Entry);
  * hence the kernel's run ends at the layer of the reference's stages (KernelRun), and the two results agree.

  The three frames are the generated ones (the reference's is its generated run with the result dropped), and the
  idealization rewrote nothing, so there is nothing to preserve.
-/
import proofs.«137600_j59545426592262_2_alg».proof.Defs
import proofs.«137600_j59545426592262_2_alg».proof.Proof.Gen.Kernel
import proofs.«137600_j59545426592262_2_alg».proof.Proof.Gen.Kernel.Skeleton
import proofs.«137600_j59545426592262_2_alg».proof.Proof.Gen.Kernel.Launch
import proofs.«137600_j59545426592262_2_alg».proof.Proof.Gen.Kernel.Points
import proofs.«137600_j59545426592262_2_alg».proof.Proof.Gen.Kernel.Frame
import proofs.«137600_j59545426592262_2_alg».proof.Proof.Gen.KernelIdeal
import proofs.«137600_j59545426592262_2_alg».proof.Proof.Gen.KernelIdeal.Skeleton
import proofs.«137600_j59545426592262_2_alg».proof.Proof.Gen.KernelIdeal.Launch
import proofs.«137600_j59545426592262_2_alg».proof.Proof.Gen.KernelIdeal.Points
import proofs.«137600_j59545426592262_2_alg».proof.Proof.Gen.KernelIdeal.Frame
import proofs.«137600_j59545426592262_2_alg».proof.Proof.Gen.ReferenceIdeal
import proofs.«137600_j59545426592262_2_alg».proof.Proof.Gen.Pre_finite_inputs
import proofs.«137600_j59545426592262_2_alg».proof.Proof.Gen.KernelIdeal.Value
import proofs.«137600_j59545426592262_2_alg».proof.Proof.Gen.ReferenceIdeal.Run
import proofs.«137600_j59545426592262_2_alg».proof.Proof.Gen.ReferenceIdeal.Read
import proofs.«137600_j59545426592262_2_alg».proof.Proof.RefLayer
import proofs.«137600_j59545426592262_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result at the layer of the
    reference's aggregation stage, the input and the transposed weight of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefLayer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
